-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 62
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x128, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .bf16⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S50000x128, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .bf16⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S50000x64, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .bf16⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x64, .f32⟩
  | .local _ .vmem, ⟨15, _⟩ => ⟨S5000x64, .bf16⟩
  | .local _ .vmem, ⟨16, _⟩ => ⟨S5000x64, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .bf16 = 32 ∨ (Rect.block (s := S50000x64) S5000x64.size (cc2_transform_3 i) (hinb2_3 i)).WholeWords (EltTy.packing .bf16)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S50000x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's whole run, with its RESULT named.

  @main is seven segments: four stretches of host operations around three pallas_calls. The contents of every
  buffer at each segment boundary are a fold from the launch memory (`W0` … `W7` of the frame module): a host
  stretch applies its operations, a pallas_call replaces its arrays by what its write-backs leave. The frame theorem
  reads only the argument arrays off the last boundary `W7`; here the same launch is read at the result buffer as
  well, so the result array after the run is `W7` at `main_v44` — a term the later modules evaluate layer by layer.
-/
import proofs.«145357_j1623497638183_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last
    boundary's contents at `main_v44`, and every argument array is as launched. -/
theorem run_result : θ_run defs (onTc (τ := τ) (main (F := F))) ⟨m, fun _ => 0, ρ⟩ (fun r => ∀ c : Dev nD,
      r.2.mem ((c.tc : Thread nD τ).loc main_v44) = W7 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v44 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Whole

end
-- ==== Proof.Layer0.lean ====
/-
  The first dense transform, `x · W1`, as the first pallas_call leaves it.

  The grid has ten points; point `t` loads rows `5000 t … 5000 t + 4999` of `x` and the whole of `W1`, multiplies them
  on the matrix unit into a zero accumulator and stores the [5000, 128] product as row block `t` of the output. On the
  extended reals a change of float format is the identity and the matrix product into zero is the plain sum over the
  contracted index, so entry `(r, c)` of block `t` is `Σ_k x(5000 t + r, k) · W1(k, c)`. The ten row blocks tile the
  [50000, 128] output, so the output array is the whole product, entry by entry — stated for ANY contents `V` of the
  buffers at the call's entry, since the call's two operands are read through `V`.
-/
import proofs.«145357_j1623497638183_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.Pipeline (Dat)

/-- Output entry `(r, c)` of a row block reads the left operand at `(r, k)`, -/
abbrev lhsAt (y : S5000x128.Idx) (k : Fin 128) : S5000x128.Idx := fun a => match a with
  | ⟨0, _⟩ => ⟨(y 0).val, (y 0).isLt⟩
  | ⟨1, _⟩ => ⟨k.val, k.isLt⟩
/-- and the weight matrix at `(k, c)`. -/
abbrev rhsAt (y : S5000x128.Idx) (k : Fin 128) : S128x128.Idx := fun a => match a with
  | ⟨0, _⟩ => ⟨k.val, k.isLt⟩
  | ⟨1, _⟩ => ⟨(y 1).val, (y 1).isLt⟩

/-- The contraction's operand indices, coordinate by coordinate: the left operand keeps the output's row and takes the
    contracted index as its column; the right operand takes the contracted index as its row and keeps the output's column. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one stored value at an entry of the row block: the product's sum over the 128 contracted positions
    (the roundings to bf16 are the identity; the accumulator is zero). -/
theorem pay_apply (x0 : Vec Ideal S5000x128 .f32) (x1 : Vec Ideal S128x128 .f32) (y : S5000x128.Idx) :
    k0_pay1 (F := Ideal) x0 x1 y = ∑ k : Fin 128, x0 (lhsAt y k) * x1 (rhsAt y k) := by
  unfold k0_pay1
  refine (Ideal.matmul_constant_zero_apply (φ₁ := .bf16) (φ₂ := .bf16) dot_S5000x128_S128x128_S5000x128_1_0_0_1_n_n none _ _ y).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = lhsAt y k := funext fun a => Fin.ext (by
    match a with
    | ⟨0, _⟩ => exact lhs_0 _ _
    | ⟨1, _⟩ => exact (lhs_1 _ _).trans hk)
  have er : dot_S5000x128_S128x128_S5000x128_1_0_0_1_n_n.rhsIdx y ((ValueIdx.contrEquiv1 dot_S5000x128_S128x128_S5000x128_1_0_0_1_n_n 128 rfl rfl).symm k) = rhsAt y k := funext fun a => Fin.ext (by
    match a with
    | ⟨0, _⟩ => exact (rhs_0 _ _).trans hk
    | ⟨1, _⟩ => exact rhs_1 _ _)
  rw [el, er]
  rfl

/-! ## From row blocks to the array -/

theorem hz : (![0, 0] : Fin 2 → Nat) = fun _ => 0 := funext fun a => by fin_cases a <;> rfl

/-- Entry `(r, c)` of the whole product reads `x` at `(r, k)` -/
abbrev rowAt (i : S50000x128.Idx) (k : Fin 128) : S50000x128.Idx := fun a => match a with
  | ⟨0, _⟩ => ⟨(i 0).val, (i 0).isLt⟩
  | ⟨1, _⟩ => ⟨k.val, k.isLt⟩
/-- and the weight at `(k, c)`. -/
abbrev colAt (i : S50000x128.Idx) (k : Fin 128) : S128x128.Idx := fun a => match a with
  | ⟨0, _⟩ => ⟨k.val, k.isLt⟩
  | ⟨1, _⟩ => ⟨(i 1).val, (i 1).isLt⟩

/-- The [50000, 128] × [128, 128] product on the extended reals: entry `(r, c)` is `Σ_k a(r, k) · w(k, c)`. -/
def product (a : S50000x128.Idx → EReal) (w : S128x128.Idx → EReal) : S50000x128.Idx → EReal :=
  fun i => ∑ k : Fin 128, a (rowAt i k) * w (colAt i k)

variable (V : (c : Dev nD) → (b : Ref sig .tc) → Buf (Elt Ideal) ((c : Thread nD τ).loc b))

/-- The three index maps over the grid: the input rows move with the output's row block, which is the point's number;
    the weight's block and every column block index are zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is row block `t` of the whole product of the two operands as the call finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = product (V c main_arg0) (V c main_arg2) (((cfg0.win 2).blk t).view.emb j)
  refine (pay_apply _ _ _).trans ?_
  refine Finset.sum_congr rfl fun k _ => ?_
  have h0 : ((cfg0.win 0).blk t).view.emb (lhsAt j k) = rowAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (rhsAt j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have a0 : iblk0 V c 0 t (lhsAt j k) = V c main_arg0 (rowAt (((cfg0.win 2).blk t).view.emb j) k) := by
    show V c main_arg0 (((cfg0.win 0).blk t).view.emb (lhsAt j k)) = _
    rw [h0]
  have a1 : iblk0 V c 1 t (rhsAt j k) = V c main_arg2 (colAt (((cfg0.win 2).blk t).view.emb j) k) := by
    show V c main_arg2 (((cfg0.win 1).blk t).view.emb (rhsAt j k)) = _
    rw [h1]
  rw [a0, a1]

/-- An index is in point `t`'s output block iff each coordinate lies in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The row blocks tile the output: row `r` lies in the block of point `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := idx_facts t
  have e5' : win0_2.index t (0 : Fin 2) = (i 0).val / 5000 := e5
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the call its output array is the whole product of its two operands as found at entry. -/
theorem final (c : Dev nD) : (dat0 V c).arrAt 2 cfg0.N = product (V c main_arg0) (V c main_arg2) :=
  (dat0 V c).arrAt_eq_of_cover 2 (product (V c main_arg0) (V c main_arg2)) (fun t _ => flushed_eq V c t) cover

end Cert.KernelIdeal.Layer0

end
-- ==== Proof.Layer1.lean ====
/-
  The second dense transform, `relu(agg + b1) · W2`, as the second pallas_call leaves it.

  Point `t` of the ten-point grid loads rows `5000 t … 5000 t + 4999` of the aggregated features, the bias as a [1, 128]
  row and the whole weight matrix; it adds the bias row to every row, takes the maximum with zero, multiplies by the
  weight on the matrix unit into a zero accumulator and stores the [5000, 128] result as row block `t` of the output. On
  the extended reals the roundings are the identity and the product into zero is the plain sum, so entry `(r, c)` of block
  `t` is `Σ_k max(agg(5000 t + r, k) + b1(k), 0) · W2(k, c)`. The row blocks tile the [50000, 128] output, so the array is
  that function of the three operands entry by entry — for ANY contents `V` of the buffers at the call's entry.
-/
import proofs.«145357_j1623497638183_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat)

/-- Output entry `(r, c)` of a row block reads the left operand at `(r, k)`, -/
abbrev lhsAt (y : S5000x128.Idx) (k : Fin 128) : S5000x128.Idx := fun a => match a with
  | ⟨0, _⟩ => ⟨(y 0).val, (y 0).isLt⟩
  | ⟨1, _⟩ => ⟨k.val, k.isLt⟩
/-- and the weight matrix at `(k, c)`. -/
abbrev rhsAt (y : S5000x128.Idx) (k : Fin 128) : S128x128.Idx := fun a => match a with
  | ⟨0, _⟩ => ⟨k.val, k.isLt⟩
  | ⟨1, _⟩ => ⟨(y 1).val, (y 1).isLt⟩

/-- The contraction's operand indices, coordinate by coordinate: the left operand keeps the output's row and takes the
    contracted index as its column; the right operand takes the contracted index as its row and keeps the output's column. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The bias row's entry for column `k`. -/
abbrev biasAt (k : Fin 128) : S1x128.Idx := fun a => match a with
  | ⟨0, _⟩ => ⟨0, Nat.one_pos⟩
  | ⟨1, _⟩ => ⟨k.val, k.isLt⟩

/-- The bias row broadcast over the 5000 rows reads, at `(r, k)`, the row's entry `k`. -/
theorem bias_row (x2 : Vec Ideal S1x128 .f32) (h : S1x128.Broadcasts S5000x128) (y : S5000x128.Idx) (k : Fin 128) :
    broadcastTo S5000x128 x2 h (lhsAt y k) = x2 (biasAt k) :=
  broadcastTo_apply x2 h (lhsAt y k) (biasAt k) fun ax => by
    match ax with
    | ⟨0, _⟩ => rfl
    | ⟨1, _⟩ => show k.val = if (128 : Nat) = 1 then 0 else k.val; rw [if_neg (by decide)]

/-- The body's one stored value at an entry of the row block: the sum over the 128 contracted positions of the
    rectified biased feature times the weight (the casts of a shape to itself and the roundings are the identity). -/
theorem pay_apply (x0 : Vec Ideal S5000x128 .f32) (x2 : Vec Ideal S1x128 .f32) (x9 : Vec Ideal S128x128 .f32) (y : S5000x128.Idx) :
    k1_pay1 (F := Ideal) x0 x2 x9 y
      = ∑ k : Fin 128, max (x0 (lhsAt y k) + x2 (biasAt k)) (Ideal.ofBits .f32 0x00000000#32) * x9 (rhsAt y k) := by
  unfold k1_pay1
  simp only [shapeCast_self]
  refine (Ideal.matmul_constant_zero_apply (φ₁ := .bf16) (φ₂ := .bf16) dot_S5000x128_S128x128_S5000x128_1_0_0_1_n_n none _ _ y).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = lhsAt y k := funext fun a => Fin.ext (by
    match a with
    | ⟨0, _⟩ => exact lhs_0 _ _
    | ⟨1, _⟩ => exact (lhs_1 _ _).trans hk)
  have er : dot_S5000x128_S128x128_S5000x128_1_0_0_1_n_n.rhsIdx y ((ValueIdx.contrEquiv1 dot_S5000x128_S128x128_S5000x128_1_0_0_1_n_n 128 rfl rfl).symm k) = rhsAt y k := funext fun a => Fin.ext (by
    match a with
    | ⟨0, _⟩ => exact (rhs_0 _ _).trans hk
    | ⟨1, _⟩ => exact rhs_1 _ _)
  rw [el, er]
  show max (x0 (lhsAt y k) + broadcastTo S5000x128 x2 broadcasts_S1x128_S5000x128 (lhsAt y k)) (Ideal.ofBits .f32 0x00000000#32) * x9 (rhsAt y k) = _
  rw [bias_row]

/-! ## From row blocks to the array -/

theorem hz : (![0, 0] : Fin 2 → Nat) = fun _ => 0 := funext fun a => by fin_cases a <;> rfl

/-- Entry `(r, c)` of the result reads the features at `(r, k)` -/
abbrev rowAt (i : S50000x128.Idx) (k : Fin 128) : S50000x128.Idx := fun a => match a with
  | ⟨0, _⟩ => ⟨(i 0).val, (i 0).isLt⟩
  | ⟨1, _⟩ => ⟨k.val, k.isLt⟩
/-- and the weight at `(k, c)`. -/
abbrev colAt (i : S50000x128.Idx) (k : Fin 128) : S128x128.Idx := fun a => match a with
  | ⟨0, _⟩ => ⟨k.val, k.isLt⟩
  | ⟨1, _⟩ => ⟨(i 1).val, (i 1).isLt⟩

/-- One layer's dense part on the extended reals: entry `(r, c)` is `Σ_k max(a(r, k) + b(0, k), 0) · w(k, c)`. -/
def layer (a : S50000x128.Idx → EReal) (b : S1x128.Idx → EReal) (w : S128x128.Idx → EReal) : S50000x128.Idx → EReal :=
  fun i => ∑ k : Fin 128, max (a (rowAt i k) + b (biasAt k)) (Ideal.ofBits .f32 0x00000000#32) * w (colAt i k)

variable (V : (c : Dev nD) → (b : Ref sig .tc) → Buf (Elt Ideal) ((c : Thread nD τ).loc b))

/-- The four index maps over the grid: the feature rows move with the output's row block, which is the point's number;
    the bias row's, the weight's and every column block index are zero. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) = t.val :=
  (by decide +kernel : ∀ t : Fin grid1.N, _)

/-- What point `t` writes back is row block `t` of `layer` of the three operands as the call finds them. -/
theorem flushed_eq (c : Dev nD) (t : Fin cfg1.N) :
    (dat1 V c).flushed 3 t = ((cfg1.win 3).blk t).view.read (Elt Ideal) (layer (V c main_v15) (V c main_v16) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx_facts t
  funext j
  show k1_pay1 (iblk1 V c 0 t) (iblk1 V c 1 t) (iblk1 V c 2 t) j = layer (V c main_v15) (V c main_v16) (V c main_arg4) (((cfg1.win 3).blk t).view.emb j)
  refine (pay_apply _ _ _ _).trans ?_
  refine Finset.sum_congr rfl fun k _ => ?_
  have h0 : ((cfg1.win 0).blk t).view.emb (lhsAt j k) = rowAt (((cfg1.win 3).blk t).view.emb j) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (biasAt k) = biasAt k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (rhsAt j k) = colAt (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  have a0 : iblk1 V c 0 t (lhsAt j k) = V c main_v15 (rowAt (((cfg1.win 3).blk t).view.emb j) k) := by
    show V c main_v15 (((cfg1.win 0).blk t).view.emb (lhsAt j k)) = _
    rw [h0]
  have a1 : iblk1 V c 1 t (biasAt k) = V c main_v16 (biasAt k) := by
    show V c main_v16 (((cfg1.win 1).blk t).view.emb (biasAt k)) = _
    rw [h1]
  have a2 : iblk1 V c 2 t (rhsAt j k) = V c main_arg4 (colAt (((cfg1.win 3).blk t).view.emb j) k) := by
    show V c main_arg4 (((cfg1.win 2).blk t).view.emb (rhsAt j k)) = _
    rw [h2]
  rw [a0, a1, a2]

/-- An index is in point `t`'s output block iff each coordinate lies in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v17).slice (win1_3.rect t)).set ↔ _
  rw [View.set_slice_whole, Rect.mem_set_unit]
  exact Iff.rfl

/-- The row blocks tile the output: row `r` lies in the block of point `r / 5000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5, e6, e7⟩ := idx_facts t
  have e7' : win1_3.index t (0 : Fin 2) = (i 0).val / 5000 := e7
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the call its output array is `layer` of its three operands as found at entry. -/
theorem final (c : Dev nD) : (dat1 V c).arrAt 3 cfg1.N = layer (V c main_v15) (V c main_v16) (V c main_arg4) :=
  (dat1 V c).arrAt_eq_of_cover 3 (layer (V c main_v15) (V c main_v16) (V c main_arg4)) (fun t _ => flushed_eq V c t) cover

end Cert.KernelIdeal.Layer1

end
-- ==== Proof.Layer2.lean ====
/-
  The third dense transform, `relu(agg + b2) · W3`, as the third pallas_call leaves it.

  Point `t` of the ten-point grid loads rows `5000 t … 5000 t + 4999` of the aggregated features, the bias as a [1, 128]
  row and the whole weight matrix; it adds the bias row to every row, takes the maximum with zero, multiplies by the
  weight on the matrix unit into a zero accumulator and stores the [5000, 64] result as row block `t` of the output. On
  the extended reals the roundings are the identity and the product into zero is the plain sum, so entry `(r, c)` of block
  `t` is `Σ_k max(agg(5000 t + r, k) + b2(k), 0) · W3(k, c)`. The row blocks tile the [50000, 64] output, so the array is
  that function of the three operands entry by entry — for ANY contents `V` of the buffers at the call's entry.
-/
import proofs.«145357_j1623497638183_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat)

/-- Output entry `(r, c)` of a row block reads the left operand at `(r, k)`, -/
abbrev lhsAt (y : S5000x64.Idx) (k : Fin 128) : S5000x128.Idx := fun a => match a with
  | ⟨0, _⟩ => ⟨(y 0).val, (y 0).isLt⟩
  | ⟨1, _⟩ => ⟨k.val, k.isLt⟩
/-- and the weight matrix at `(k, c)`. -/
abbrev rhsAt (y : S5000x64.Idx) (k : Fin 128) : S128x64.Idx := fun a => match a with
  | ⟨0, _⟩ => ⟨k.val, k.isLt⟩
  | ⟨1, _⟩ => ⟨(y 1).val, (y 1).isLt⟩

/-- The contraction's operand indices, coordinate by coordinate: the left operand keeps the output's row and takes the
    contracted index as its column; the right operand takes the contracted index as its row and keeps the output's column. -/
theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The bias row's entry for column `k`. -/
abbrev biasAt (k : Fin 128) : S1x128.Idx := fun a => match a with
  | ⟨0, _⟩ => ⟨0, Nat.one_pos⟩
  | ⟨1, _⟩ => ⟨k.val, k.isLt⟩

/-- The bias row broadcast over the 5000 rows reads, at `(r, k)`, the row's entry `k`. -/
theorem bias_row (x2 : Vec Ideal S1x128 .f32) (h : S1x128.Broadcasts S5000x128) (y : S5000x64.Idx) (k : Fin 128) :
    broadcastTo S5000x128 x2 h (lhsAt y k) = x2 (biasAt k) :=
  broadcastTo_apply x2 h (lhsAt y k) (biasAt k) fun ax => by
    match ax with
    | ⟨0, _⟩ => rfl
    | ⟨1, _⟩ => show k.val = if (128 : Nat) = 1 then 0 else k.val; rw [if_neg (by decide)]

/-- The body's one stored value at an entry of the row block: the sum over the 128 contracted positions of the
    rectified biased feature times the weight (the casts of a shape to itself and the roundings are the identity). -/
theorem pay_apply (x0 : Vec Ideal S5000x128 .f32) (x2 : Vec Ideal S1x128 .f32) (x9 : Vec Ideal S128x64 .f32) (y : S5000x64.Idx) :
    k2_pay1 (F := Ideal) x0 x2 x9 y
      = ∑ k : Fin 128, max (x0 (lhsAt y k) + x2 (biasAt k)) (Ideal.ofBits .f32 0x00000000#32) * x9 (rhsAt y k) := by
  unfold k2_pay1
  simp only [shapeCast_self]
  refine (Ideal.matmul_constant_zero_apply (φ₁ := .bf16) (φ₂ := .bf16) dot_S5000x128_S128x64_S5000x64_1_0_0_1_n_n none _ _ y).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx y ((ValueIdx.contrEquiv1 dot_S5000x128_S128x64_S5000x64_1_0_0_1_n_n 128 rfl rfl).symm k) = lhsAt y k := funext fun a => Fin.ext (by
    match a with
    | ⟨0, _⟩ => exact lhs_0 _ _
    | ⟨1, _⟩ => exact (lhs_1 _ _).trans hk)
  have er : dot_S5000x128_S128x64_S5000x64_1_0_0_1_n_n.rhsIdx y ((ValueIdx.contrEquiv1 dot_S5000x128_S128x64_S5000x64_1_0_0_1_n_n 128 rfl rfl).symm k) = rhsAt y k := funext fun a => Fin.ext (by
    match a with
    | ⟨0, _⟩ => exact (rhs_0 _ _).trans hk
    | ⟨1, _⟩ => exact rhs_1 _ _)
  rw [el, er]
  show max (x0 (lhsAt y k) + broadcastTo S5000x128 x2 broadcasts_S1x128_S5000x128 (lhsAt y k)) (Ideal.ofBits .f32 0x00000000#32) * x9 (rhsAt y k) = _
  rw [bias_row]

/-! ## From row blocks to the array -/

theorem hz : (![0, 0] : Fin 2 → Nat) = fun _ => 0 := funext fun a => by fin_cases a <;> rfl

/-- Entry `(r, c)` of the result reads the features at `(r, k)` -/
abbrev rowAt (i : S50000x64.Idx) (k : Fin 128) : S50000x128.Idx := fun a => match a with
  | ⟨0, _⟩ => ⟨(i 0).val, (i 0).isLt⟩
  | ⟨1, _⟩ => ⟨k.val, k.isLt⟩
/-- and the weight at `(k, c)`. -/
abbrev colAt (i : S50000x64.Idx) (k : Fin 128) : S128x64.Idx := fun a => match a with
  | ⟨0, _⟩ => ⟨k.val, k.isLt⟩
  | ⟨1, _⟩ => ⟨(i 1).val, (i 1).isLt⟩

/-- One layer's dense part on the extended reals: entry `(r, c)` is `Σ_k max(a(r, k) + b(0, k), 0) · w(k, c)`. -/
def layer (a : S50000x128.Idx → EReal) (b : S1x128.Idx → EReal) (w : S128x64.Idx → EReal) : S50000x64.Idx → EReal :=
  fun i => ∑ k : Fin 128, max (a (rowAt i k) + b (biasAt k)) (Ideal.ofBits .f32 0x00000000#32) * w (colAt i k)

variable (V : (c : Dev nD) → (b : Ref sig .tc) → Buf (Elt Ideal) ((c : Thread nD τ).loc b))

/-- The four index maps over the grid: the feature rows move with the output's row block, which is the point's number;
    the bias row's, the weight's and every column block index are zero. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) = t.val :=
  (by decide +kernel : ∀ t : Fin grid2.N, _)

/-- What point `t` writes back is row block `t` of `layer` of the three operands as the call finds them. -/
theorem flushed_eq (c : Dev nD) (t : Fin cfg2.N) :
    (dat2 V c).flushed 3 t = ((cfg2.win 3).blk t).view.read (Elt Ideal) (layer (V c main_v28) (V c main_v29) (V c main_arg6)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x64) hz]
  obtain ⟨e0, e1, e2, e3, e4, e5, e6, e7⟩ := idx_facts t
  funext j
  show k2_pay1 (iblk2 V c 0 t) (iblk2 V c 1 t) (iblk2 V c 2 t) j = layer (V c main_v28) (V c main_v29) (V c main_arg6) (((cfg2.win 3).blk t).view.emb j)
  refine (pay_apply _ _ _ _).trans ?_
  refine Finset.sum_congr rfl fun k _ => ?_
  have h0 : ((cfg2.win 0).blk t).view.emb (lhsAt j k) = rowAt (((cfg2.win 3).blk t).view.emb j) k := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have h1 : ((cfg2.win 1).blk t).view.emb (biasAt k) = biasAt k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ((cfg2.win 2).blk t).view.emb (rhsAt j k) = colAt (((cfg2.win 3).blk t).view.emb j) k := by
    funext a; apply Fin.ext
    match a with
    | ⟨0, _⟩ => show win2_2.index t (0 : Fin 2) * 128 + 1 * k.val = k.val; omega
    | ⟨1, _⟩ => show win2_2.index t (1 : Fin 2) * 64 + 1 * (j 1).val = win2_3.index t (1 : Fin 2) * 64 + 1 * (j 1).val; omega
  have a0 : iblk2 V c 0 t (lhsAt j k) = V c main_v28 (rowAt (((cfg2.win 3).blk t).view.emb j) k) := by
    show V c main_v28 (((cfg2.win 0).blk t).view.emb (lhsAt j k)) = _
    rw [h0]
  have a1 : iblk2 V c 1 t (biasAt k) = V c main_v29 (biasAt k) := by
    show V c main_v29 (((cfg2.win 1).blk t).view.emb (biasAt k)) = _
    rw [h1]
  have a2 : iblk2 V c 2 t (rhsAt j k) = V c main_arg6 (colAt (((cfg2.win 3).blk t).view.emb j) k) := by
    show V c main_arg6 (((cfg2.win 2).blk t).view.emb (rhsAt j k)) = _
    rw [h2]
  rw [a0, a1, a2]

/-- An index is in point `t`'s output block iff each coordinate lies in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v30).slice (win2_3.rect t)).set ↔ _
  rw [View.set_slice_whole, Rect.mem_set_unit]
  exact Iff.rfl

/-- The row blocks tile the output: row `r` lies in the block of point `r / 5000`. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0, e1, e2, e3, e4, e5, e6, e7⟩ := idx_facts t
  have e7' : win2_3.index t (0 : Fin 2) = (i 0).val / 5000 := e7
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After the call its output array is `layer` of its three operands as found at entry. -/
theorem final (c : Dev nD) : (dat2 V c).arrAt 3 cfg2.N = layer (V c main_v28) (V c main_v29) (V c main_arg6) :=
  (dat2 V c).arrAt_eq_of_cover 3 (layer (V c main_v28) (V c main_v29) (V c main_arg6)) (fun t _ => flushed_eq V c t) cover

end Cert.KernelIdeal.Layer2

end
-- ==== Proof.Boundaries.lean ====
/-
  The contents of the idealized kernel's buffers at each of the seven segment boundaries of @main, read back to the
  argument arrays, and — layer by layer — identified with the reference's own stages.

  Nothing after the first host stretch writes an argument array or the two index rows cut out of `edge_index`
  (source row `main_v1`, destination row `main_v3`), so each keeps its contents across every later boundary. What
  changes is one chain: the first call's output is `x · W1` (the reference's first `dot_general`); the host stretch
  after it gathers that array's rows at the source indices and scatter-adds them at the destination indices — the
  SAME gather and scatter-add, on the same index rows, that the reference applies to its product, so the two
  aggregated arrays are one term once the products are identified; the next call's output is
  `relu(agg + b) · W`, which entry by entry is the reference's `dot_general` of `maximum(agg + b, 0)` with `W`: both
  are `Σ_k max(agg(r, k) + b(k), 0) · W(k, c)`, the kernel's bias a [1,128] row cast from the vector, the reference's
  the vector broadcast to every row; and so on through the third layer and the final bias add. No law beyond the
  definitions of these operations on the extended reals is used; in particular nothing here needs the inputs finite.
-/
import proofs.«145357_j1623497638183_2_alg».proof.Proof.Gen.KernelIdeal.Frame
import proofs.«145357_j1623497638183_2_alg».proof.Proof.Gen.ReferenceIdeal.Read
import proofs.«145357_j1623497638183_2_alg».proof.Proof.Layer0
import proofs.«145357_j1623497638183_2_alg».proof.Proof.Layer1
import proofs.«145357_j1623497638183_2_alg».proof.Proof.Layer2
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)

/-! ## What is carried unchanged: the arguments and the two index rows -/

/-! ### Boundary 1 -/
theorem at1_arg0 : W1 m ρ c (Proc.devRef .tc main_arg0) = m ((c.tc : Thread nD τ).loc main_arg0) := by
  show StableHlo.after hostOps0 (W0 m ρ c) (Proc.devRef .tc main_arg0) = _
  after_results
  all_goals rfl
theorem at1_arg2 : W1 m ρ c (Proc.devRef .tc main_arg2) = m ((c.tc : Thread nD τ).loc main_arg2) := by
  show StableHlo.after hostOps0 (W0 m ρ c) (Proc.devRef .tc main_arg2) = _
  after_results
  all_goals rfl
theorem at1_arg3 : W1 m ρ c (Proc.devRef .tc main_arg3) = m ((c.tc : Thread nD τ).loc main_arg3) := by
  show StableHlo.after hostOps0 (W0 m ρ c) (Proc.devRef .tc main_arg3) = _
  after_results
  all_goals rfl
theorem at1_arg4 : W1 m ρ c (Proc.devRef .tc main_arg4) = m ((c.tc : Thread nD τ).loc main_arg4) := by
  show StableHlo.after hostOps0 (W0 m ρ c) (Proc.devRef .tc main_arg4) = _
  after_results
  all_goals rfl
theorem at1_arg5 : W1 m ρ c (Proc.devRef .tc main_arg5) = m ((c.tc : Thread nD τ).loc main_arg5) := by
  show StableHlo.after hostOps0 (W0 m ρ c) (Proc.devRef .tc main_arg5) = _
  after_results
  all_goals rfl
theorem at1_arg6 : W1 m ρ c (Proc.devRef .tc main_arg6) = m ((c.tc : Thread nD τ).loc main_arg6) := by
  show StableHlo.after hostOps0 (W0 m ρ c) (Proc.devRef .tc main_arg6) = _
  after_results
  all_goals rfl
theorem at1_arg7 : W1 m ρ c (Proc.devRef .tc main_arg7) = m ((c.tc : Thread nD τ).loc main_arg7) := by
  show StableHlo.after hostOps0 (W0 m ρ c) (Proc.devRef .tc main_arg7) = _
  after_results
  all_goals rfl
theorem at1_v1 : W1 m ρ c (Proc.devRef .tc main_v1) = val_main_v1 (F := Ideal) (m ((c.tc : Thread nD τ).loc main_arg1)) := by
  show StableHlo.after hostOps0 (W0 m ρ c) (Proc.devRef .tc main_v1) = _
  after_results
  all_goals rfl
theorem at1_v3 : W1 m ρ c (Proc.devRef .tc main_v3) = val_main_v3 (F := Ideal) (m ((c.tc : Thread nD τ).loc main_arg1)) := by
  show StableHlo.after hostOps0 (W0 m ρ c) (Proc.devRef .tc main_v3) = _
  after_results
  all_goals rfl

/-! ### Boundary 2 -/
theorem at2_arg3 : W2 m ρ c (Proc.devRef .tc main_arg3) = m ((c.tc : Thread nD τ).loc main_arg3) :=
  (W2_of_ne m ρ c main_arg3 (by decide)).trans (at1_arg3 m ρ c)
theorem at2_arg4 : W2 m ρ c (Proc.devRef .tc main_arg4) = m ((c.tc : Thread nD τ).loc main_arg4) :=
  (W2_of_ne m ρ c main_arg4 (by decide)).trans (at1_arg4 m ρ c)
theorem at2_arg5 : W2 m ρ c (Proc.devRef .tc main_arg5) = m ((c.tc : Thread nD τ).loc main_arg5) :=
  (W2_of_ne m ρ c main_arg5 (by decide)).trans (at1_arg5 m ρ c)
theorem at2_arg6 : W2 m ρ c (Proc.devRef .tc main_arg6) = m ((c.tc : Thread nD τ).loc main_arg6) :=
  (W2_of_ne m ρ c main_arg6 (by decide)).trans (at1_arg6 m ρ c)
theorem at2_arg7 : W2 m ρ c (Proc.devRef .tc main_arg7) = m ((c.tc : Thread nD τ).loc main_arg7) :=
  (W2_of_ne m ρ c main_arg7 (by decide)).trans (at1_arg7 m ρ c)
theorem at2_v1 : W2 m ρ c (Proc.devRef .tc main_v1) = val_main_v1 (F := Ideal) (m ((c.tc : Thread nD τ).loc main_arg1)) :=
  (W2_of_ne m ρ c main_v1 (by decide)).trans (at1_v1 m ρ c)
theorem at2_v3 : W2 m ρ c (Proc.devRef .tc main_v3) = val_main_v3 (F := Ideal) (m ((c.tc : Thread nD τ).loc main_arg1)) :=
  (W2_of_ne m ρ c main_v3 (by decide)).trans (at1_v3 m ρ c)

/-! ### Boundary 3 -/
theorem at3_arg4 : W3 m ρ c (Proc.devRef .tc main_arg4) = m ((c.tc : Thread nD τ).loc main_arg4) := by
  show StableHlo.after hostOps1 (W2 m ρ c) (Proc.devRef .tc main_arg4) = _
  after_results
  all_goals exact at2_arg4 m ρ c
theorem at3_arg5 : W3 m ρ c (Proc.devRef .tc main_arg5) = m ((c.tc : Thread nD τ).loc main_arg5) := by
  show StableHlo.after hostOps1 (W2 m ρ c) (Proc.devRef .tc main_arg5) = _
  after_results
  all_goals exact at2_arg5 m ρ c
theorem at3_arg6 : W3 m ρ c (Proc.devRef .tc main_arg6) = m ((c.tc : Thread nD τ).loc main_arg6) := by
  show StableHlo.after hostOps1 (W2 m ρ c) (Proc.devRef .tc main_arg6) = _
  after_results
  all_goals exact at2_arg6 m ρ c
theorem at3_arg7 : W3 m ρ c (Proc.devRef .tc main_arg7) = m ((c.tc : Thread nD τ).loc main_arg7) := by
  show StableHlo.after hostOps1 (W2 m ρ c) (Proc.devRef .tc main_arg7) = _
  after_results
  all_goals exact at2_arg7 m ρ c
theorem at3_v1 : W3 m ρ c (Proc.devRef .tc main_v1) = val_main_v1 (F := Ideal) (m ((c.tc : Thread nD τ).loc main_arg1)) := by
  show StableHlo.after hostOps1 (W2 m ρ c) (Proc.devRef .tc main_v1) = _
  after_results
  all_goals exact at2_v1 m ρ c
theorem at3_v3 : W3 m ρ c (Proc.devRef .tc main_v3) = val_main_v3 (F := Ideal) (m ((c.tc : Thread nD τ).loc main_arg1)) := by
  show StableHlo.after hostOps1 (W2 m ρ c) (Proc.devRef .tc main_v3) = _
  after_results
  all_goals exact at2_v3 m ρ c

/-! ### Boundary 4 -/
theorem at4_arg5 : W4 m ρ c (Proc.devRef .tc main_arg5) = m ((c.tc : Thread nD τ).loc main_arg5) :=
  (W4_of_ne m ρ c main_arg5 (by decide)).trans (at3_arg5 m ρ c)
theorem at4_arg6 : W4 m ρ c (Proc.devRef .tc main_arg6) = m ((c.tc : Thread nD τ).loc main_arg6) :=
  (W4_of_ne m ρ c main_arg6 (by decide)).trans (at3_arg6 m ρ c)
theorem at4_arg7 : W4 m ρ c (Proc.devRef .tc main_arg7) = m ((c.tc : Thread nD τ).loc main_arg7) :=
  (W4_of_ne m ρ c main_arg7 (by decide)).trans (at3_arg7 m ρ c)
theorem at4_v1 : W4 m ρ c (Proc.devRef .tc main_v1) = val_main_v1 (F := Ideal) (m ((c.tc : Thread nD τ).loc main_arg1)) :=
  (W4_of_ne m ρ c main_v1 (by decide)).trans (at3_v1 m ρ c)
theorem at4_v3 : W4 m ρ c (Proc.devRef .tc main_v3) = val_main_v3 (F := Ideal) (m ((c.tc : Thread nD τ).loc main_arg1)) :=
  (W4_of_ne m ρ c main_v3 (by decide)).trans (at3_v3 m ρ c)

/-! ### Boundary 5 -/
theorem at5_arg6 : W5 m ρ c (Proc.devRef .tc main_arg6) = m ((c.tc : Thread nD τ).loc main_arg6) := by
  show StableHlo.after hostOps2 (W4 m ρ c) (Proc.devRef .tc main_arg6) = _
  after_results
  all_goals exact at4_arg6 m ρ c
theorem at5_arg7 : W5 m ρ c (Proc.devRef .tc main_arg7) = m ((c.tc : Thread nD τ).loc main_arg7) := by
  show StableHlo.after hostOps2 (W4 m ρ c) (Proc.devRef .tc main_arg7) = _
  after_results
  all_goals exact at4_arg7 m ρ c
theorem at5_v1 : W5 m ρ c (Proc.devRef .tc main_v1) = val_main_v1 (F := Ideal) (m ((c.tc : Thread nD τ).loc main_arg1)) := by
  show StableHlo.after hostOps2 (W4 m ρ c) (Proc.devRef .tc main_v1) = _
  after_results
  all_goals exact at4_v1 m ρ c
theorem at5_v3 : W5 m ρ c (Proc.devRef .tc main_v3) = val_main_v3 (F := Ideal) (m ((c.tc : Thread nD τ).loc main_arg1)) := by
  show StableHlo.after hostOps2 (W4 m ρ c) (Proc.devRef .tc main_v3) = _
  after_results
  all_goals exact at4_v3 m ρ c

/-! ### Boundary 6 -/
theorem at6_arg7 : W6 m ρ c (Proc.devRef .tc main_arg7) = m ((c.tc : Thread nD τ).loc main_arg7) :=
  (W6_of_ne m ρ c main_arg7 (by decide)).trans (at5_arg7 m ρ c)
theorem at6_v1 : W6 m ρ c (Proc.devRef .tc main_v1) = val_main_v1 (F := Ideal) (m ((c.tc : Thread nD τ).loc main_arg1)) :=
  (W6_of_ne m ρ c main_v1 (by decide)).trans (at5_v1 m ρ c)
theorem at6_v3 : W6 m ρ c (Proc.devRef .tc main_v3) = val_main_v3 (F := Ideal) (m ((c.tc : Thread nD τ).loc main_arg1)) :=
  (W6_of_ne m ρ c main_v3 (by decide)).trans (at5_v3 m ρ c)

/-! ## The chain of computed arrays -/

/-- The first call's output is the reference's first product. -/
theorem at2_v4 : W2 m ρ c (Proc.devRef .tc main_v4) = val_main_v4 (F := Ideal) (m ((c.tc : Thread nD τ).loc main_arg0)) (m ((c.tc : Thread nD τ).loc main_arg2)) := by
  refine (W2_arr m ρ c 2).trans ((Layer0.final (V1 m ρ) c).trans ?_)
  rw [show V1 m ρ c main_arg0 = _ from at1_arg0 m ρ c, show V1 m ρ c main_arg2 = _ from at1_arg2 m ρ c]
  funext i
  exact (val_main_v4_apply _ _ i).symm

/-- Gathered at the source indices and scatter-added at the destination indices: the reference's first aggregate. -/
theorem at3_v15 : W3 m ρ c (Proc.devRef .tc main_v15) = val_main_v14 (F := Ideal) (m ((c.tc : Thread nD τ).loc main_arg0)) (m ((c.tc : Thread nD τ).loc main_arg1)) (m ((c.tc : Thread nD τ).loc main_arg2)) := by
  show StableHlo.after hostOps1 (W2 m ρ c) (Proc.devRef .tc main_v15) = _
  after_results
  rw [at2_v1 m ρ c, at2_v3 m ρ c, at2_v4 m ρ c]
  rfl

/-- The first bias as a [1, 128] row. -/
theorem at3_v16 : W3 m ρ c (Proc.devRef .tc main_v16) = shapeCast S1x128 (m ((c.tc : Thread nD τ).loc main_arg3)) shapeCasts_S128_S1x128 := by
  show StableHlo.after hostOps1 (W2 m ρ c) (Proc.devRef .tc main_v16) = _
  after_results
  rw [at2_arg3 m ρ c]
  rfl

/-- A [128] vector cast to a [1, 128] row reads, at `(0, k)`, the vector's entry `k`. -/
theorem bias_cast1 (b : S128.Idx → EReal) (h : S128.ShapeCasts S1x128) (k : Fin 128) :
    shapeCast S1x128 b h (Layer1.biasAt k) = b (idx_main_v15 (Layer1.biasAt k)) :=
  shapeCast_apply b h _ _ (by
    rw [Shape.rowMajor_val_two, Shape.rowMajor_val_one]
    show k.val = 0 * 128 + k.val
    omega)
theorem bias_cast2 (b : S128.Idx → EReal) (h : S128.ShapeCasts S1x128) (k : Fin 128) :
    shapeCast S1x128 b h (Layer2.biasAt k) = b (idx_main_v30 (Layer2.biasAt k)) :=
  shapeCast_apply b h _ _ (by
    rw [Shape.rowMajor_val_two, Shape.rowMajor_val_one]
    show k.val = 0 * 128 + k.val
    omega)

/-- The second call's output is the reference's second product, of the rectified biased aggregate with `W2`. -/
theorem at4_v17 : W4 m ρ c (Proc.devRef .tc main_v17) = val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 3).trans ((Layer1.final (V3 m ρ) c).trans ?_)
  rw [show V3 m ρ c main_v15 = _ from at3_v15 m ρ c, show V3 m ρ c main_v16 = _ from at3_v16 m ρ c,
    show V3 m ρ c main_arg4 = _ from at3_arg4 m ρ c]
  funext i
  refine Eq.trans ?_ (val_main_v19_apply _ _ _ _ _ i).symm
  simp only [Layer1.layer]
  refine Finset.sum_congr rfl fun k _ => ?_
  rw [val_main_v18_apply, val_main_v17_apply, val_main_v16_apply, val_main_v15_apply, val_main_call0_v0_apply,
    val_main_call0_cst_apply, bias_cast1]
  rfl

/-- The second aggregate. -/
theorem at5_v28 : W5 m ρ c (Proc.devRef .tc main_v28) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (W4 m ρ c) (Proc.devRef .tc main_v28) = _
  after_results
  rw [at4_v1 m ρ c, at4_v3 m ρ c, at4_v17 m ρ c]
  rfl

/-- The second bias as a [1, 128] row. -/
theorem at5_v29 : W5 m ρ c (Proc.devRef .tc main_v29) = shapeCast S1x128 (m ((c.tc : Thread nD τ).loc main_arg5)) shapeCasts_S128_S1x128 := by
  show StableHlo.after hostOps2 (W4 m ρ c) (Proc.devRef .tc main_v29) = _
  after_results
  rw [at4_arg5 m ρ c]
  rfl

/-- The third call's output is the reference's third product, of the rectified biased aggregate with `W3`. -/
theorem at6_v30 : W6 m ρ c (Proc.devRef .tc main_v30) = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W6_arr m ρ c 3).trans ((Layer2.final (V5 m ρ) c).trans ?_)
  rw [show V5 m ρ c main_v28 = _ from at5_v28 m ρ c, show V5 m ρ c main_v29 = _ from at5_v29 m ρ c,
    show V5 m ρ c main_arg6 = _ from at5_arg6 m ρ c]
  funext i
  refine Eq.trans ?_ (val_main_v34_apply _ _ _ _ _ _ _ i).symm
  simp only [Layer2.layer]
  refine Finset.sum_congr rfl fun k _ => ?_
  rw [val_main_v33_apply, val_main_v32_apply, val_main_v31_apply, val_main_v30_apply, val_main_call1_v0_apply,
    val_main_call1_cst_apply, bias_cast2]
  rfl

set_option maxHeartbeats 4000000 in
/-- The result: the third aggregate plus the last bias on every row — the reference's result, as one function of the
    eight argument arrays. -/
theorem at7_v44 : W7 m ρ c (Proc.devRef .tc main_v44) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps3 (W6 m ρ c) (Proc.devRef .tc main_v44) = _
  after_results
  rw [at6_v1 m ρ c, at6_v3 m ρ c, at6_v30 m ρ c, at6_arg7 m ρ c]
  rfl

end Cert.KernelIdeal.Whole

end
-- ==== Proof.lean ====
/-
  A three-layer graph convolution (sum aggregation over edges, relu between layers) computed two ways, equal on the
  extended reals.

  The kernel runs each layer's dense transform on the matrix unit — `x · W1`, then `relu(agg1 + b1) · W2`, then
  `relu(agg2 + b2) · W3`, each as a pallas_call over ten row blocks of 5000 nodes — and between the calls the host gathers
  the transformed rows at the edges' source nodes and scatter-adds them at their destination nodes; the last bias is
  added on the host. The reference applies, layer by layer, a whole `dot_general`, the same gather and scatter-add, the
  bias broadcast to every row, and relu.

  On the extended reals a change of float format is the identity, and a matrix product into a zero accumulator and the
  host's `dot_general` are both the plain sum over the contracted index; so each call's output array, assembled from
  its row blocks, is entry by entry the reference's product of that layer (Layer0, Layer1, Layer2), with the bias add
  and relu that the kernel fuses into the call and the reference leaves on the host meeting inside the sum:
  `Σ_k max(agg(r, k) + b(k), 0) · W(k, c)`. The gather and the scatter-add are the same operations on the same index
  rows in both programs and are never opened. Reading the kernel's buffers boundary by boundary (Boundaries) the result
  array is therefore the reference's last stage as one function of the eight arguments; the reference's generated run
  states the same function of its own arguments, which agree with the kernel's. Every step is a definitional reading or
  a re-indexing of a finite sum, so the finiteness of the inputs is never used.

  The three frames: the two kernel programs' are the generated frame theorems; the reference has no pallas_call and its
  frame is its generated run with the result dropped. The idealization rewrote no operation, so `preserves` is `True`.
-/
import proofs.«145357_j1623497638183_2_alg».proof.Defs
import proofs.«145357_j1623497638183_2_alg».proof.Proof.Gen.Kernel
import proofs.«145357_j1623497638183_2_alg».proof.Proof.Gen.Kernel.Skeleton
import proofs.«145357_j1623497638183_2_alg».proof.Proof.Gen.Kernel.Launch
import proofs.«145357_j1623497638183_2_alg».proof.Proof.Gen.Kernel.Points
import proofs.«145357_j1623497638183_2_alg».proof.Proof.Gen.Kernel.Frame
import proofs.«145357_j1623497638183_2_alg».proof.Proof.Gen.KernelIdeal
import proofs.«145357_j1623497638183_2_alg».proof.Proof.Gen.KernelIdeal.Skeleton
import proofs.«145357_j1623497638183_2_alg».proof.Proof.Gen.KernelIdeal.Launch
import proofs.«145357_j1623497638183_2_alg».proof.Proof.Gen.KernelIdeal.Points
import proofs.«145357_j1623497638183_2_alg».proof.Proof.Gen.KernelIdeal.Frame
import proofs.«145357_j1623497638183_2_alg».proof.Proof.Gen.ReferenceIdeal
import proofs.«145357_j1623497638183_2_alg».proof.Proof.Gen.ReferenceIdeal.Run
import proofs.«145357_j1623497638183_2_alg».proof.Proof.Gen.ReferenceIdeal.Read
import proofs.«145357_j1623497638183_2_alg».proof.Proof.Gen.Pre_finite_inputs
import proofs.«145357_j1623497638183_2_alg».proof.Proof.KernelRun
import proofs.«145357_j1623497638183_2_alg».proof.Proof.Boundaries
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- Both programs end with the same [50000, 64] array: the reference's last stage as a function of the kernel's eight
    arguments — the kernel by the boundary-by-boundary reading of its run, the reference by its generated run and the
    agreement of the arguments. -/
theorem algebraic : Cert.algebraic_KernelIdeal_ReferenceIdeal := by
  intro m ρ m' ρ' _ hagree
  refine ⟨fun c => Cert.ReferenceIdeal.Read.val_main_v47 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.at7_v44 m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v47_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
